-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x40 : Shape := ⟨2, ![100000, 40]⟩
abbrev S3200000 : Shape := ⟨1, ![3200000]⟩
abbrev S10x128 : Shape := ⟨2, ![10, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x40 : S_.BroadcastsInDim S100000x40 (![] : Fin 0 → Fin S100000x40.rank)
  reducesTo_S100000x40_S_d0_1 : S100000x40.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x40 .f32) (main_arg1 : IVec S3200000 32) (main_arg2 : IVec S3200000 32) (main_arg3 : FVec F S10x128 .f32) (main_arg4 : FVec F S128 .f32) (main_arg5 : FVec F S128x64 .f32) (main_arg6 : FVec F S64 .f32) : IVec S_ 1 :=
  let main_v0 : FVec F S100000x40 .f32 := Host.absf main_arg0
  let main_cst : FVec F S_ .f32 := constant S_ .f32 0x7F800000#32
  let main_v1 : FVec F S100000x40 .f32 := broadcastInDim S100000x40 ![] bcast_S_S100000x40 main_cst
  let main_v2 : IVec S100000x40 1 := cmpf .olt main_v0 main_v1
  let main_c : IVec S_ 1 := constantI S_ 1 1#1
  let main_v3 : IVec S_ 1 := (fun x v => Host.reduce IntOp.andi x v reducesTo_S100000x40_S_d0_1 h_S_) main_v2 main_c
  let main_v4 : FVec F S10x128 .f32 := Host.absf main_arg3
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x40 : Shape := ⟨2, ![100000, 40]⟩
abbrev S3200000 : Shape := ⟨1, ![3200000]⟩
abbrev S10x128 : Shape := ⟨2, ![10, 128]⟩
abbrev S128 : Shape := ⟨1, ![128]⟩
abbrev S128x64 : Shape := ⟨2, ![128, 64]⟩
abbrev S64 : Shape := ⟨1, ![64]⟩
abbrev S100000x10 : Shape := ⟨2, ![100000, 10]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x10 : Shape := ⟨2, ![3200000, 10]⟩
abbrev S100000x64 : Shape := ⟨2, ![100000, 64]⟩
abbrev S5000x10 : Shape := ⟨2, ![5000, 10]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩

abbrev nBuf : Space → Nat
  | .hbm => 58
  | .vmem => 8
  | .smem => 0
  | _ => 0

abbrev bufTy : (tb : Table) → Fin (tcTables nBuf tb) → BufTy
  | .hbm, ⟨0, _⟩ => ⟨S100000x40, .f32⟩
  | .hbm, ⟨1, _⟩ => ⟨S3200000, .i32⟩
  | .hbm, ⟨2, _⟩ => ⟨S3200000, .i32⟩
  | .hbm, ⟨3, _⟩ => ⟨S10x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000x10, .f32⟩
  | .hbm, ⟨8, _⟩ => ⟨S_, .f32⟩
  | .hbm, ⟨9, _⟩ => ⟨S3200000, .f32⟩
  | .hbm, ⟨10, _⟩ => ⟨S_, .f32⟩
  | .hbm, ⟨11, _⟩ => ⟨S100000, .f32⟩
  | .hbm, ⟨12, _⟩ => ⟨S3200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x10, .f32⟩
  | .hbm, ⟨40, _⟩ => ⟨S100000x10, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x10, .f32⟩
  | .hbm, ⟨50, _⟩ => ⟨S_, .f32⟩
  | .hbm, ⟨51, _⟩ => ⟨S100000x10, .f32⟩
  | .hbm, ⟨52, _⟩ => ⟨S3200000x1, .i32⟩
  | .hbm, ⟨53, _⟩ => ⟨S100000x10, .f32⟩
  | .hbm, ⟨54, _⟩ => ⟨S100000x1, .f32⟩
  | .hbm, ⟨55, _⟩ => ⟨S100000x10, .f32⟩
  | .hbm, ⟨56, _⟩ => ⟨S100000x10, .f32⟩
  | .hbm, ⟨57, _⟩ => ⟨S100000x64, .f32⟩
  | .local _ .vmem, ⟨0, _⟩ => ⟨S5000x10, .f32⟩
  | .local _ .vmem, ⟨1, _⟩ => ⟨S5000x10, .f32⟩
  | .local _ .vmem, ⟨2, _⟩ => ⟨S10x128, .f32⟩
  | .local _ .vmem, ⟨3, _⟩ => ⟨S128, .f32⟩
  | .local _ .vmem, ⟨4, _⟩ => ⟨S128x64, .f32⟩
  | .local _ .vmem, ⟨5, _⟩ => ⟨S64, .f32⟩
  | .local _ .vmem, ⟨6, _⟩ => ⟨S5000x64, .f32⟩
  | .local _ .vmem, ⟨7, _⟩ => ⟨S5000x64, .f32⟩
  | _, _ => ⟨S100000x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S100000x40_S100000x10_0_15 : S100000x40.Slices ![0, 15] S100000x10
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  bcast_S_S100000x10 : S_.BroadcastsInDim S100000x10 (![] : Fin 0 → Fin S100000x10.rank)
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  bitsLt_bf16_f32 : FTy.bits .bf16 < FTy.bits .f32
  inb_S10x128_S10x128_0_0 : ∀ a, (![0, 0] : Fin 2 → Nat) a + S10x128.size a ≤ S10x128.size a
  h_S10x128 : 0 < S10x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S3200000x1_S3200000_n_0_0_1_wf : ScatterDims.WF S100000 S3200000x1 S3200000 [] [0] [0] 1
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S5000x10_S10x128_S5000x128_1_0_0_1_n_n_wf : DotDims.WF S5000x10 S10x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S100000x10.size a
  hwx0_0 : ∀ i : grid0.Coords, EltTy.bits .f32 = 32 ∨ (Rect.block (s := S100000x10) S5000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x128.size a ≤ S10x128.size a
  hwx0_1 : ∀ i : grid0.Coords, EltTy.bits .f32 = 32 ∨ (Rect.block (s := S10x128) S10x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S5000x10_S10x128_S5000x128_1_0_0_1_n_n : DotDims S5000x10 S10x128 S5000x128 where
  lhsContracting := [1]
  rhsContracting := [0]
  lhsNonContracting := [0]
  rhsNonContracting := [1]
  lhsBatch := []
  rhsBatch := []
  wf := dot_S5000x10_S10x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v33) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S10x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x40 : Shape := ⟨2, ![100000, 40]⟩
abbrev S3200000 : Shape := ⟨1, ![3200000]⟩
abbrev S10x128 : Shape := ⟨2, ![10, 128]⟩
abbrev S128 : Shape := ⟨1, ![128]⟩
abbrev S128x64 : Shape := ⟨2, ![128, 64]⟩
abbrev S64 : Shape := ⟨1, ![64]⟩
abbrev S100000x10 : Shape := ⟨2, ![100000, 10]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S3200000x10 : Shape := ⟨2, ![3200000, 10]⟩
abbrev S100000x128 : Shape := ⟨2, ![100000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 65
  | .vmem => 0
  | .smem => 0
  | _ => 0

abbrev bufTy : (tb : Table) → Fin (tcTables nBuf tb) → BufTy
  | .hbm, ⟨0, _⟩ => ⟨S100000x40, .f32⟩
  | .hbm, ⟨1, _⟩ => ⟨S3200000, .i32⟩
  | .hbm, ⟨2, _⟩ => ⟨S3200000, .i32⟩
  | .hbm, ⟨3, _⟩ => ⟨S10x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000x10, .f32⟩
  | .hbm, ⟨8, _⟩ => ⟨S_, .f32⟩
  | .hbm, ⟨9, _⟩ => ⟨S3200000, .f32⟩
  | .hbm, ⟨10, _⟩ => ⟨S_, .f32⟩
  | .hbm, ⟨11, _⟩ => ⟨S100000, .f32⟩
  | .hbm, ⟨12, _⟩ => ⟨S3200000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S3200000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x10, .f32⟩
  | .hbm, ⟨40, _⟩ => ⟨S100000x10, .f32⟩
  | .hbm, ⟨41, _⟩ => ⟨S_, .i32⟩
  | .hbm, ⟨42, _⟩ => ⟨S3200000, .i32⟩
  | .hbm, ⟨43, _⟩ => ⟨S3200000, .i1⟩
  | .hbm, ⟨44, _⟩ => ⟨S_, .i32⟩
  | .hbm, ⟨45, _⟩ => ⟨S3200000, .i32⟩
  | .hbm, ⟨46, _⟩ => ⟨S3200000, .i32⟩
  | .hbm, ⟨47, _⟩ => ⟨S3200000, .i32⟩
  | .hbm, ⟨48, _⟩ => ⟨S3200000x1, .i32⟩
  | .hbm, ⟨49, _⟩ => ⟨S3200000x10, .f32⟩
  | .hbm, ⟨50, _⟩ => ⟨S_, .f32⟩
  | .hbm, ⟨51, _⟩ => ⟨S100000x10, .f32⟩
  | .hbm, ⟨52, _⟩ => ⟨S3200000x1, .i32⟩
  | .hbm, ⟨53, _⟩ => ⟨S100000x10, .f32⟩
  | .hbm, ⟨54, _⟩ => ⟨S100000x1, .f32⟩
  | .hbm, ⟨55, _⟩ => ⟨S100000x10, .f32⟩
  | .hbm, ⟨56, _⟩ => ⟨S100000x10, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | _, _ => ⟨S100000x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_call1_v0 : Ref sig .tc := ⟨.hbm, 32, rfl⟩
abbrev main_call1_v1 : Ref sig .tc := ⟨.hbm, 33, rfl⟩
abbrev main_v15 : Ref sig .tc := ⟨.hbm, 34, rfl⟩
abbrev main_cst_7 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩

abbrev nD : Nat := 1
abbrev τ : Topo := Topo.v7x

variable {F : FTy → Type} [FloatOps F]

class Facts₀ : Prop where
  slices_S100000x40_S100000x10_0_15 : S100000x40.Slices ![0, 15] S100000x10
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  bcast_S_S100000x10 : S_.BroadcastsInDim S100000x10 (![] : Fin 0 → Fin S100000x10.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3200000x1_S3200000_n_0_0_1_wf : ScatterDims.WF S100000 S3200000x1 S3200000 [] [0] [0] 1
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S100000x10_S10x128_S100000x128_1_0_0_1_n_n_wf : DotDims.WF S100000x10 S10x128 S100000x128 [1] [0] [0] [1] [] []
  dot_S100000x128_S128x64_S100000x64_1_0_0_1_n_n_wf : DotDims.WF S100000x128 S128x64 S100000x64 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x10_S10x128_S100000x128_1_0_0_1_n_n : DotDims S100000x10 S10x128 S100000x128 where
  lhsContracting := [1]
  rhsContracting := [0]
  lhsNonContracting := [0]
  rhsNonContracting := [1]
  lhsBatch := []
  rhsBatch := []
  wf := dot_S100000x10_S10x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RefAgg.lean ====
/-
  The aggregated node features, as the host computes them before the dense head: ONE named function of the node
  features and the two edge-endpoint arrays.

  In words: the ten feature columns 15..24 of every node, scaled by the node's out-degree norm (out-degree counted by a
  scatter-add of ones over the source endpoints, zero degrees replaced by one, raised to the power -1/2), gathered along
  the source endpoints, scatter-added into the destination endpoints, and scaled by the destination's in-degree norm
  (likewise). The term below is that chain exactly as the program spells it, operation by operation. Nothing in this
  certificate opens it: both programs apply the same chain to the same arguments, and the dense head is a function of
  its result.
-/
import proofs.«110995_j75050258530542_1_alg».proof.Proof.Gen.ReferenceIdeal

noncomputable section

namespace Cert.ReferenceIdeal.HeadValue

open Cert.ReferenceIdeal Cert.ReferenceIdeal.Gen Idealize.ShloMosaic

variable {F : FTy → Type} [FloatOps F]

/-- The [100000, 10] array of aggregated, degree-normalised node features. -/
def agg (x0 : (⟨S100000x40, .f32⟩ : BufTy).Contents (Elt F)) (x1 x2 : (⟨S3200000, .i32⟩ : BufTy).Contents (Elt F)) :
    (⟨S100000x10, .f32⟩ : BufTy).Contents (Elt F) :=
  mulf (Host.scatterAdd scatter_S100000x10_S3200000x1_S3200000x10_1_0_0_1 (broadcastInDim S100000x10 ![] bcast_S_S100000x10 (constant S_ .f32 0x00000000#32)) (broadcastInDim S3200000x1 ![0] bcast_S3200000_S3200000x1_0 x2) (Host.gather gather_S100000x10_S3200000x1_S3200000x10_1_0_n_n_0_1_110 (mulf (extractStridedSlice S100000x10 ![0, 15] x0 slices_S100000x40_S100000x10_0_15) (broadcastInDim S100000x10 ![0, 1] bcast_S100000x1_S100000x10_0_1 (broadcastInDim S100000x1 ![0] bcast_S100000_S100000x1_0 (Host.powf (select (cmpf (F := F) .ogt (Host.scatterAdd scatter_S100000_S3200000x1_S3200000_n_0_0_1 (broadcastInDim S100000 ![] bcast_S_S100000 (constant S_ .f32 0x00000000#32)) (broadcastInDim S3200000x1 ![0] bcast_S3200000_S3200000x1_0 x1) (broadcastInDim S3200000 ![] bcast_S_S3200000 (constant S_ .f32 0x3F800000#32))) (broadcastInDim S100000 ![] bcast_S_S100000 (constant S_ .f32 0x00000000#32))) (Host.scatterAdd scatter_S100000_S3200000x1_S3200000_n_0_0_1 (broadcastInDim S100000 ![] bcast_S_S100000 (constant S_ .f32 0x00000000#32)) (broadcastInDim S3200000x1 ![0] bcast_S3200000_S3200000x1_0 x1) (broadcastInDim S3200000 ![] bcast_S_S3200000 (constant S_ .f32 0x3F800000#32))) (broadcastInDim S100000 ![] bcast_S_S100000 (id (constant S_ .f32 0x3F800000#32)))) (broadcastInDim S100000 ![] bcast_S_S100000 (constant S_ .f32 0xBF000000#32)))))) (broadcastInDim S3200000x1 ![0] bcast_S3200000_S3200000x1_0 (select (cmpi .slt x1 (broadcastInDim S3200000 ![] bcast_S_S3200000 (constantI S_ 32 0#32))) (addi x1 (broadcastInDim S3200000 ![] bcast_S_S3200000 (constantI S_ 32 100000#32))) x1)))) (broadcastInDim S100000x10 ![0, 1] bcast_S100000x1_S100000x10_0_1 (broadcastInDim S100000x1 ![0] bcast_S100000_S100000x1_0 (Host.powf (select (cmpf (F := F) .ogt (Host.scatterAdd scatter_S100000_S3200000x1_S3200000_n_0_0_1 (broadcastInDim S100000 ![] bcast_S_S100000 (constant S_ .f32 0x00000000#32)) (broadcastInDim S3200000x1 ![0] bcast_S3200000_S3200000x1_0 x2) (broadcastInDim S3200000 ![] bcast_S_S3200000 (constant S_ .f32 0x3F800000#32))) (broadcastInDim S100000 ![] bcast_S_S100000 (constant S_ .f32 0x00000000#32))) (Host.scatterAdd scatter_S100000_S3200000x1_S3200000_n_0_0_1 (broadcastInDim S100000 ![] bcast_S_S100000 (constant S_ .f32 0x00000000#32)) (broadcastInDim S3200000x1 ![0] bcast_S3200000_S3200000x1_0 x2) (broadcastInDim S3200000 ![] bcast_S_S3200000 (constant S_ .f32 0x3F800000#32))) (broadcastInDim S100000 ![] bcast_S_S100000 (id (constant S_ .f32 0x3F800000#32)))) (broadcastInDim S100000 ![] bcast_S_S100000 (constant S_ .f32 0xBF000000#32)))))

end Cert.ReferenceIdeal.HeadValue

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.HeadSpec.lean ====
/-
  The dense head of the graph convolution as ONE function of five arrays, on extended reals.

  For a matrix `a` of `R` rows and ten columns (the aggregated node features), a [10, 128] weight matrix `w1` with a bias
  `b1` of length 128, and a [128, 64] weight matrix `w2` with a bias `b2` of length 64:

      hidden a w1 b1 r h  =  (sum over k < 10 of a(r, k) * w1(k, h)) + b1(h)
      outAt  a w1 b1 w2 b2 r o  =  (sum over h < 128 of hidden a w1 b1 r h * w2(h, o)) + b2(o)

  and `head` is the [100000, 64] array whose entry (r, o) is `outAt` there. Row `r` of the result depends on row `r` of `a`
  alone (and on all of the two weight matrices and biases): `outAt_congr` says so, and it is what lets a tile of rows
  computed from the matching tile of `a` stand for those rows of the whole result. The two sums are taken in the same
  order and grouping wherever this function is met, so no law of extended-real arithmetic is needed and none is used:
  nothing here asks the entries to be finite.
-/
import Idealize.ShloMosaic.PureOps.Ideal
import Idealize.ShloMosaic.Lib.ValueIdx

noncomputable section

namespace Cert.HeadSpec

open Idealize.ShloMosaic Idealize.ShloMosaic.ValueIdx
open scoped BigOperators

/-- Hidden feature `h` of row `r`: the row's ten entries against column `h` of the first weight matrix, plus the first
    bias at `h`. -/
def hidden {R : ℕ} (a : (⟨2, ![R, 10]⟩ : Shape).Idx → EReal) (w1 : (⟨2, ![10, 128]⟩ : Shape).Idx → EReal)
    (b1 : (⟨1, ![128]⟩ : Shape).Idx → EReal) (r : Fin R) (h : Fin 128) : EReal :=
  (∑ k : Fin 10, a (ix2 r k) * w1 (ix2 k h)) + b1 (ix1 h)

/-- Output feature `o` of row `r`: the row's 128 hidden features against column `o` of the second weight matrix, plus the
    second bias at `o`. -/
def outAt {R : ℕ} (a : (⟨2, ![R, 10]⟩ : Shape).Idx → EReal) (w1 : (⟨2, ![10, 128]⟩ : Shape).Idx → EReal)
    (b1 : (⟨1, ![128]⟩ : Shape).Idx → EReal) (w2 : (⟨2, ![128, 64]⟩ : Shape).Idx → EReal)
    (b2 : (⟨1, ![64]⟩ : Shape).Idx → EReal) (r : Fin R) (o : Fin 64) : EReal :=
  (∑ h : Fin 128, hidden a w1 b1 r h * w2 (ix2 h o)) + b2 (ix1 o)

/-- The whole result: entry (r, o) of the [100000, 64] array. -/
def head (a : (⟨2, ![100000, 10]⟩ : Shape).Idx → EReal) (w1 : (⟨2, ![10, 128]⟩ : Shape).Idx → EReal)
    (b1 : (⟨1, ![128]⟩ : Shape).Idx → EReal) (w2 : (⟨2, ![128, 64]⟩ : Shape).Idx → EReal)
    (b2 : (⟨1, ![64]⟩ : Shape).Idx → EReal) : (⟨2, ![100000, 64]⟩ : Shape).Idx → EReal :=
  fun i => outAt a w1 b1 w2 b2 (i 0) (i 1)

theorem head_ix2 (a : (⟨2, ![100000, 10]⟩ : Shape).Idx → EReal) (w1 : (⟨2, ![10, 128]⟩ : Shape).Idx → EReal)
    (b1 : (⟨1, ![128]⟩ : Shape).Idx → EReal) (w2 : (⟨2, ![128, 64]⟩ : Shape).Idx → EReal)
    (b2 : (⟨1, ![64]⟩ : Shape).Idx → EReal) (r : Fin 100000) (o : Fin 64) :
    head a w1 b1 w2 b2 (ix2 r o) = outAt a w1 b1 w2 b2 r o := rfl

/-- Row `r` of the result depends on row `r` of the first matrix alone: two matrices (of any two heights) that agree
    along one row of each give that row the same output, the weights and biases being the same. -/
theorem outAt_congr {R R' : ℕ} (a : (⟨2, ![R, 10]⟩ : Shape).Idx → EReal) (a' : (⟨2, ![R', 10]⟩ : Shape).Idx → EReal)
    (w1 : (⟨2, ![10, 128]⟩ : Shape).Idx → EReal) (b1 : (⟨1, ![128]⟩ : Shape).Idx → EReal)
    (w2 : (⟨2, ![128, 64]⟩ : Shape).Idx → EReal) (b2 : (⟨1, ![64]⟩ : Shape).Idx → EReal)
    (r : Fin R) (r' : Fin R') (o : Fin 64) (ha : ∀ k : Fin 10, a (ix2 r k) = a' (ix2 r' k)) :
    outAt a w1 b1 w2 b2 r o = outAt a' w1 b1 w2 b2 r' o := by
  unfold outAt hidden
  refine congrArg (· + b2 (ix1 o)) (Finset.sum_congr rfl fun h _ => ?_)
  refine congrArg (fun s => (s + b1 (ix1 h)) * w2 (ix2 h o)) (Finset.sum_congr rfl fun k _ => ?_)
  rw [ha k]

end Cert.HeadSpec

end
-- ==== Proof.RefHead.lean ====
/-
  The reference's dense head read at an entry.

  After the aggregation the reference applies eight host operations to an [100000, 10] array `a`: a dot_general with the
  first weight matrix, the first bias cast to one row and laid along every row, an add; a dot_general with the second
  weight matrix, the second bias likewise, an add. Read at (r, o) each dot_general is the sum over its one contracted
  axis and each laid-out bias its entry at the column, so the result is `HeadSpec.head a w1 b1 w2 b2`:

      (sum over h < 128 of ((sum over k < 10 of a(r, k) * w1(k, h)) + b1(h)) * w2(h, o)) + b2(o).

  The array `a` stays a variable throughout.
-/
import proofs.«110995_j75050258530542_1_alg».proof.Proof.Gen.ReferenceIdeal
import proofs.«110995_j75050258530542_1_alg».proof.Proof.LibMatmulRows
import proofs.«110995_j75050258530542_1_alg».proof.Proof.LibBiasRows
import proofs.«110995_j75050258530542_1_alg».proof.Proof.HeadSpec
import Idealize.ShloMosaic.Lib.Pipeline.Value
import Idealize.ShloMosaic.Lib.ValueIdx
import Idealize.ShloMosaic.PureOps.Ideal.Laws

noncomputable section

namespace Cert.ReferenceIdeal.HeadValue

open Cert.ReferenceIdeal Cert.ReferenceIdeal.Gen Idealize.ShloMosaic Idealize.ShloMosaic.ValueIdx
open scoped BigOperators

/-! ## The two dot_generals' operand coordinates -/

theorem rdot1_l0 (i : S100000x128.Idx) (q : dot_S100000x10_S10x128_S100000x128_1_0_0_1_n_n.contr.Idx) :
    (dot_S100000x10_S10x128_S100000x128_1_0_0_1_n_n.lhsIdx i q 0).val = (i 0).val := by
  unfold DotDims.lhsIdx
  rw [dif_neg (show ¬(0 : Fin S100000x10.rank) ∈ dot_S100000x10_S10x128_S100000x128_1_0_0_1_n_n.lhsBatch by decide), dif_pos (show (0 : Fin S100000x10.rank) ∈ dot_S100000x10_S10x128_S100000x128_1_0_0_1_n_n.lhsNonContracting by decide)]
  rfl
theorem rdot1_l1 (i : S100000x128.Idx) (q : dot_S100000x10_S10x128_S100000x128_1_0_0_1_n_n.contr.Idx) :
    (dot_S100000x10_S10x128_S100000x128_1_0_0_1_n_n.lhsIdx i q 1).val = (q ⟨0, by decide⟩).val :=
  dot_S100000x10_S10x128_S100000x128_1_0_0_1_n_n.lhsIdx_val_of_single rfl i q
theorem rdot1_r0 (i : S100000x128.Idx) (q : dot_S100000x10_S10x128_S100000x128_1_0_0_1_n_n.contr.Idx) :
    (dot_S100000x10_S10x128_S100000x128_1_0_0_1_n_n.rhsIdx i q 0).val = (q ⟨0, by decide⟩).val :=
  dot_S100000x10_S10x128_S100000x128_1_0_0_1_n_n.rhsIdx_val_of_single rfl i q
theorem rdot1_r1 (i : S100000x128.Idx) (q : dot_S100000x10_S10x128_S100000x128_1_0_0_1_n_n.contr.Idx) :
    (dot_S100000x10_S10x128_S100000x128_1_0_0_1_n_n.rhsIdx i q 1).val = (i 1).val := by
  unfold DotDims.rhsIdx
  rw [dif_neg (show ¬(1 : Fin S10x128.rank) ∈ dot_S100000x10_S10x128_S100000x128_1_0_0_1_n_n.rhsBatch by decide), dif_pos (show (1 : Fin S10x128.rank) ∈ dot_S100000x10_S10x128_S100000x128_1_0_0_1_n_n.rhsNonContracting by decide)]
  rfl

theorem rdot2_l0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem rdot2_l1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rdot2_r0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rdot2_r1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-! ## The tail at (r, o) -/

/-- The reference's eight operations after the aggregation, applied to any [100000, 10] array, are the head. -/
theorem tail_eq (a : FVec Ideal S100000x10 .f32) (x3 : FVec Ideal S10x128 .f32) (x4 : FVec Ideal S128 .f32)
    (x5 : FVec Ideal S128x64 .f32) (x6 : FVec Ideal S64 .f32) :
    addf (Host.dotGeneral dot_S100000x128_S128x64_S100000x64_1_0_0_1_n_n none
        (addf (Host.dotGeneral dot_S100000x10_S10x128_S100000x128_1_0_0_1_n_n none a x3)
          (broadcastInDim S100000x128 ![0, 1] bcast_S1x128_S100000x128_0_1 (broadcastInDim S1x128 ![1] bcast_S128_S1x128_1 x4))) x5)
      (broadcastInDim S100000x64 ![0, 1] bcast_S1x64_S100000x64_0_1 (broadcastInDim S1x64 ![1] bcast_S64_S1x64_1 x6))
    = Cert.HeadSpec.head a x3 x4 x5 x6 := by
  funext i
  obtain ⟨r, o, rfl⟩ : ∃ (r : Fin 100000) (o : Fin 64), i = ix2 r o := ⟨i 0, i 1, eq_ix2 i⟩
  refine Eq.trans ?_ (Cert.HeadSpec.head_ix2 a x3 x4 x5 x6 r o).symm
  unfold Cert.HeadSpec.outAt
  refine congrArg₂ (· + ·) ?_ (Cert.LibBiasRows.bias_host (by decide) x6 bcast_S64_S1x64_1 bcast_S1x64_S100000x64_0_1 r o)
  refine (Cert.LibMatmulRows.hostdot_rows dot_S100000x128_S128x64_S100000x64_1_0_0_1_n_n rfl rfl rdot2_l0 rdot2_l1 rdot2_r0 rdot2_r1 _ x5 r o).trans ?_
  refine Finset.sum_congr rfl fun h _ => ?_
  refine congrArg (· * x5 (ix2 h o)) ?_
  unfold Cert.HeadSpec.hidden
  refine congrArg₂ (· + ·) ?_ (Cert.LibBiasRows.bias_host (by decide) x4 bcast_S128_S1x128_1 bcast_S1x128_S100000x128_0_1 r h)
  exact Cert.LibMatmulRows.hostdot_rows dot_S100000x10_S10x128_S100000x128_1_0_0_1_n_n rfl rfl rdot1_l0 rdot1_l1 rdot1_r0 rdot1_r1 a x3 r h

end Cert.ReferenceIdeal.HeadValue

end
-- ==== Proof.HostAgg.lean ====
/-
  What the region finds in the kernel's first window's array: the aggregated node features.

  Before the kernel is launched the kernel's program runs the same fifty host operations as the reference, on the same
  three arguments, and the kernel's first window is laid over their last result. So the array the region finds there is
  the aggregation `agg` of the node features and the two edge-endpoint arrays as launched.

  Six of the fifty operations belong to the two calls of the helper that replaces zero degrees by one (a convert, a
  broadcast and a select each). Inside a call a value is carried along the equation "this buffer's type is the value's
  type", which holds by computation; so each of these operations is the plain operation on its buffers (`where0_ops`,
  `where1_ops`: three-element lists, equal entry by entry). With the two calls put in that form, the fifty operations'
  results are read off the fold one after the other, from ANY contents of the buffers (`after_agg`), and what comes
  out is the chain of `agg`, operation for operation. No operation of the chain — no scatter, gather, power or
  comparison — is opened.
-/
import proofs.«110995_j75050258530542_1_alg».proof.Proof.Gen.KernelIdeal.Frame
import proofs.«110995_j75050258530542_1_alg».proof.Proof.RefAgg
import Idealize.ShloMosaic.Lib.StableHlo.Run
import Idealize.ShloMosaic.PureOps.Ideal

noncomputable section

namespace Cert.KernelIdeal.HeadValue

open Cert.KernelIdeal Cert.KernelIdeal.Gen Idealize.ShloMosaic Idealize.ShloMosaic.TcCoe Idealize.SL.Sem
open Idealize.ShloMosaic.StableHlo

/-! ## The two calls of the clamp helper as plain operations -/

theorem where0_ops : (hostOps0_1 : List (HloOp τ sig (Elt Ideal))) =
    [ StableHlo.unary main_cst_3 main_call0_v0 (id : (⟨S_, .f32⟩ : BufTy).Contents (Elt Ideal) → (⟨S_, .f32⟩ : BufTy).Contents (Elt Ideal)),
      StableHlo.unary main_call0_v0 main_call0_v1 (broadcastInDim S100000 ![] bcast_S_S100000 : (⟨S_, .f32⟩ : BufTy).Contents (Elt Ideal) → (⟨S100000, .f32⟩ : BufTy).Contents (Elt Ideal)),
      StableHlo.ternary main_v9 main_v4 main_call0_v1 main_v10 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

theorem where1_ops : (hostOps0_3 : List (HloOp τ sig (Elt Ideal))) =
    [ StableHlo.unary main_cst_6 main_call1_v0 (id : (⟨S_, .f32⟩ : BufTy).Contents (Elt Ideal) → (⟨S_, .f32⟩ : BufTy).Contents (Elt Ideal)),
      StableHlo.unary main_call1_v0 main_call1_v1 (broadcastInDim S100000 ![] bcast_S_S100000 : (⟨S_, .f32⟩ : BufTy).Contents (Elt Ideal) → (⟨S100000, .f32⟩ : BufTy).Contents (Elt Ideal)),
      StableHlo.ternary main_v14 main_v7 main_call1_v1 main_v15 (select : (⟨S100000, .i1⟩ : BufTy).Contents (Elt Ideal) → (⟨S100000, .f32⟩ : BufTy).Contents (Elt Ideal) → (⟨S100000, .f32⟩ : BufTy).Contents (Elt Ideal) → (⟨S100000, .f32⟩ : BufTy).Contents (Elt Ideal)) ] := rfl

/-! ## The fifty operations from any buffer contents -/

set_option maxRecDepth 65536 in
set_option maxHeartbeats 2000000 in
/-- From any contents `W` of the buffers, after the fifty host operations the buffer the first window is laid over
    holds the aggregation of what `W` has at the three argument buffers. -/
theorem after_agg (W : Valuation τ sig (Elt Ideal)) :
    (StableHlo.after (List.flatten [hostOps0, hostOps0_1, hostOps0_2, hostOps0_3, hostOps0_4]) W (Proc.devRef .tc main_v33) : S100000x10.Idx → EReal)
      = Cert.ReferenceIdeal.HeadValue.agg (F := Ideal) (W (Proc.devRef .tc main_arg0)) (W (Proc.devRef .tc main_arg1))
          (W (Proc.devRef .tc main_arg2)) := by
  rw [where0_ops, where1_ops]
  simp only [hostOps0, hostOps0_2, hostOps0_4, List.flatten_cons, List.flatten_nil, List.append_nil,
    List.cons_append, List.nil_append]
  simp (disch := decide) only [after_cons, after_nil, nullary_result', unary_result', binary_result', ternary_result',
    nullary_result_ne', unary_result_ne', binary_result_ne', ternary_result_ne']
  rfl

variable (m : (ℓ : Loc nD τ sig) → Buf (Elt Ideal) ℓ)

/-- The first window's array at region entry is the aggregation of the three arguments as launched. -/
theorem entry_agg (c : Dev nD) :
    (V m c main_v33 : S100000x10.Idx → EReal)
      = Cert.ReferenceIdeal.HeadValue.agg (F := Ideal) (m ((c : Thread nD τ).loc main_arg0))
          (m ((c : Thread nD τ).loc main_arg1)) (m ((c : Thread nD τ).loc main_arg2)) :=
  after_agg (fun b => m (c, b))

end Cert.KernelIdeal.HeadValue

end
-- ==== Proof.HeadPayload.lean ====
/-
  What the kernel's body stores, read at one entry.

  The body loads a tile of 5000 rows of the aggregated features and the whole of the two weight matrices and the two
  biases, and stores one [5000, 64] tile: the matrix unit's product of the feature tile with the first weight matrix
  (into a zero accumulator), plus the first bias laid along every row; then the product of that [5000, 128] tile with
  the second weight matrix (into a zero accumulator), plus the second bias laid along every row. The narrowings to
  sixteen-bit floats on the way into each product are the identity on extended reals. Read at row p and column o of
  the tile this is `HeadSpec.outAt` of the five loaded blocks at (p, o):

      (sum over h < 128 of ((sum over k < 10 of x0(p, k) * x1(k, h)) + x2(h)) * x3(h, o)) + x4(o).

  Each product is read as a sum over its one contracted axis from four facts about its dimension record (which operand
  coordinate is the output row, which the contraction index, which the output column); a bias goes [n] -> [1, n] -> [5000, n],
  and entry (p, c) of the last is entry c of the first.
-/
import proofs.«110995_j75050258530542_1_alg».proof.Proof.Gen.KernelIdeal.Skeleton
import proofs.«110995_j75050258530542_1_alg».proof.Proof.LibMatmulRows
import proofs.«110995_j75050258530542_1_alg».proof.Proof.LibBiasRows
import proofs.«110995_j75050258530542_1_alg».proof.Proof.HeadSpec
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HeadValue

open Cert.KernelIdeal Cert.KernelIdeal.Gen Idealize.ShloMosaic Idealize.ShloMosaic.ValueIdx
open scoped BigOperators

/-! ## The two products' operand coordinates -/

theorem dot1_l0 (i : S5000x128.Idx) (q : dot_S5000x10_S10x128_S5000x128_1_0_0_1_n_n.contr.Idx) :
    (dot_S5000x10_S10x128_S5000x128_1_0_0_1_n_n.lhsIdx i q 0).val = (i 0).val := by
  unfold DotDims.lhsIdx
  rw [dif_neg (show ¬(0 : Fin S5000x10.rank) ∈ dot_S5000x10_S10x128_S5000x128_1_0_0_1_n_n.lhsBatch by decide), dif_pos (show (0 : Fin S5000x10.rank) ∈ dot_S5000x10_S10x128_S5000x128_1_0_0_1_n_n.lhsNonContracting by decide)]
  rfl
theorem dot1_l1 (i : S5000x128.Idx) (q : dot_S5000x10_S10x128_S5000x128_1_0_0_1_n_n.contr.Idx) :
    (dot_S5000x10_S10x128_S5000x128_1_0_0_1_n_n.lhsIdx i q 1).val = (q ⟨0, by decide⟩).val :=
  dot_S5000x10_S10x128_S5000x128_1_0_0_1_n_n.lhsIdx_val_of_single rfl i q
theorem dot1_r0 (i : S5000x128.Idx) (q : dot_S5000x10_S10x128_S5000x128_1_0_0_1_n_n.contr.Idx) :
    (dot_S5000x10_S10x128_S5000x128_1_0_0_1_n_n.rhsIdx i q 0).val = (q ⟨0, by decide⟩).val :=
  dot_S5000x10_S10x128_S5000x128_1_0_0_1_n_n.rhsIdx_val_of_single rfl i q
theorem dot1_r1 (i : S5000x128.Idx) (q : dot_S5000x10_S10x128_S5000x128_1_0_0_1_n_n.contr.Idx) :
    (dot_S5000x10_S10x128_S5000x128_1_0_0_1_n_n.rhsIdx i q 1).val = (i 1).val := by
  unfold DotDims.rhsIdx
  rw [dif_neg (show ¬(1 : Fin S10x128.rank) ∈ dot_S5000x10_S10x128_S5000x128_1_0_0_1_n_n.rhsBatch by decide), dif_pos (show (1 : Fin S10x128.rank) ∈ dot_S5000x10_S10x128_S5000x128_1_0_0_1_n_n.rhsNonContracting by decide)]
  rfl

theorem dot2_l0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot2_l1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem dot2_r0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem dot2_r1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## The stored tile at (p, o) -/

/-- The stored [5000, 64] tile at (p, o) is the head's output feature o of row p of the loaded feature tile. -/
theorem pay_apply (x0 : FVec Ideal S5000x10 .f32) (x1 : FVec Ideal S10x128 .f32) (x2 : FVec Ideal S128 .f32)
    (x3 : FVec Ideal S128x64 .f32) (x4 : FVec Ideal S64 .f32) (p : Fin 5000) (o : Fin 64) :
    k0_pay1 (F := Ideal) x0 x1 x2 x3 x4 (ix2 p o) = Cert.HeadSpec.outAt x0 x1 x2 x3 x4 p o := by
  unfold k0_pay1 Cert.HeadSpec.outAt
  refine congrArg₂ (· + ·) ?_ (Cert.LibBiasRows.bias_rows x4 shapeCasts_S64_S1x64 broadcasts_S1x64_S5000x64 p o)
  refine (Cert.LibMatmulRows.matmul_rows dot_S5000x128_S128x64_S5000x64_1_0_0_1_n_n rfl rfl dot2_l0 dot2_l1 dot2_r0 dot2_r1 _ _ p o).trans ?_
  refine Finset.sum_congr rfl fun h _ => ?_
  refine congrArg (· * x3 (ix2 h o)) ?_
  unfold Cert.HeadSpec.hidden
  refine congrArg₂ (· + ·) ?_ (Cert.LibBiasRows.bias_rows x2 shapeCasts_S128_S1x128 broadcasts_S1x128_S5000x128 p h)
  refine (Cert.LibMatmulRows.matmul_rows dot_S5000x10_S10x128_S5000x128_1_0_0_1_n_n rfl rfl dot1_l0 dot1_l1 dot1_r0 dot1_r1 _ _ p h).trans ?_
  refine Finset.sum_congr rfl fun k _ => ?_
  refine congrArg (· * x1 (ix2 k h)) ?_
  exact congrFun (shapeCast_self x0 shapeCasts_S5000x10_S5000x10) (ix2 p k)

end Cert.KernelIdeal.HeadValue

end
-- ==== Proof.HeadBlocks.lean ====
/-
  From tiles to the whole array: after the kernel's run the result array is the head of the arrays the region found.

  The grid has twenty points. At point t the feature window's block is rows 5000·t .. 5000·t + 4999 of the aggregated
  features (all ten columns), each weight or bias window's block is the whole of its array, and the output window's
  block is rows 5000·t .. 5000·t + 4999 of the result (all 64 columns). The body's stored tile at (p, o) is the head's
  output feature o of row p of the feature tile, and that row is row 5000·t + p of the whole feature array; since an
  output row depends on its own feature row alone, point t writes back exactly block t of `head` of the whole arrays.
  Row r of the result lies in the block of point r / 5000, so the twenty blocks cover the array, and the array ends at
  `head`.

  Everything about one grid point is proved with the five arrays as variables; the arrays the region finds enter only
  when the per-point statement is set beside the run.
-/
import proofs.«110995_j75050258530542_1_alg».proof.Proof.Gen.KernelIdeal.Value
import proofs.«110995_j75050258530542_1_alg».proof.Proof.HeadPayload
import proofs.«110995_j75050258530542_1_alg».proof.Proof.HeadSpec
import proofs.«110995_j75050258530542_1_alg».proof.Proof.LibMatmulRows
import Idealize.ShloMosaic.Lib.Pipeline.Value
import Idealize.ShloMosaic.Lib.ValueIdx

noncomputable section

namespace Cert.KernelIdeal.HeadValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The printed index maps over the twenty points: the feature window and the output window sit at block row t and
    block column 0; the weights' and biases' windows at block 0 on every axis. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-! ## Reading a block of an array, the array a variable -/

/-- The feature window's block at point t of ANY [100000, 10] array `A`, at (p, k), is `A` at row 5000·t + p, column k. -/
theorem rows_read (A : S100000x10.Idx → EReal) (t : Fin cfg0.N) (p : Fin 5000) (k : Fin 10) (r : Fin 100000)
    (hr : r.val = t.val * 5000 + p.val) :
    (((cfg0.win 0).blk t).view.read (Elt Ideal) A : S5000x10.Idx → EReal) (ix2 p k) = A (ix2 r k) := by
  obtain ⟨e00, e01, -⟩ := idx_facts t
  rw [View.read_apply]
  refine congrArg A (funext fun a => Fin.ext ?_)
  match a with
  | ⟨0, _⟩ => show win0_0.index t (0 : Fin 2) * 5000 + 1 * p.val = r.val; omega
  | ⟨1, _⟩ => show win0_0.index t (1 : Fin 2) * 10 + 1 * k.val = k.val; omega

/-- The first weight window's block at any point of ANY [10, 128] array is the array. -/
theorem w1_read (A : S10x128.Idx → EReal) (t : Fin cfg0.N) :
    (((cfg0.win 1).blk t).view.read (Elt Ideal) A : S10x128.Idx → EReal) = A := by
  obtain ⟨-, -, e10, e11, -⟩ := idx_facts t
  funext y
  rw [View.read_apply]
  refine congrArg A (funext fun a => Fin.ext ?_)
  match a with
  | ⟨0, _⟩ => show win0_1.index t (0 : Fin 2) * 10 + 1 * (y 0).val = (y 0).val; omega
  | ⟨1, _⟩ => show win0_1.index t (1 : Fin 2) * 128 + 1 * (y 1).val = (y 1).val; omega

/-- The first bias window's block at any point of ANY [128] array is the array. -/
theorem b1_read (A : S128.Idx → EReal) (t : Fin cfg0.N) :
    (((cfg0.win 2).blk t).view.read (Elt Ideal) A : S128.Idx → EReal) = A := by
  obtain ⟨-, -, -, -, e20, -⟩ := idx_facts t
  funext y
  rw [View.read_apply]
  refine congrArg A (funext fun a => Fin.ext ?_)
  match a with
  | ⟨0, _⟩ => show win0_2.index t (0 : Fin 1) * 128 + 1 * (y 0).val = (y 0).val; omega

/-- The second weight window's block at any point of ANY [128, 64] array is the array. -/
theorem w2_read (A : S128x64.Idx → EReal) (t : Fin cfg0.N) :
    (((cfg0.win 3).blk t).view.read (Elt Ideal) A : S128x64.Idx → EReal) = A := by
  obtain ⟨-, -, -, -, -, e30, e31, -⟩ := idx_facts t
  funext y
  rw [View.read_apply]
  refine congrArg A (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- The second bias window's block at any point of ANY [64] array is the array. -/
theorem b2_read (A : S64.Idx → EReal) (t : Fin cfg0.N) :
    (((cfg0.win 4).blk t).view.read (Elt Ideal) A : S64.Idx → EReal) = A := by
  obtain ⟨-, -, -, -, -, -, -, e40, -⟩ := idx_facts t
  funext y
  rw [View.read_apply]
  refine congrArg A (funext fun a => Fin.ext ?_)
  match a with
  | ⟨0, _⟩ => show win0_4.index t (0 : Fin 1) * 64 + 1 * (y 0).val = (y 0).val; omega

/-! ## One entry of a stored tile, over variables -/

/-- A stored tile, computed from a feature tile that is rows 5000·tv .. of a feature array `A` and from the whole weights
    and biases, is at local index `y` the head of the whole arrays at the index `i` with row 5000·tv + (row of y) and the
    same column. -/
theorem tile_entry (A : (⟨2, ![100000, 10]⟩ : Shape).Idx → EReal) (W1 : (⟨2, ![10, 128]⟩ : Shape).Idx → EReal)
    (B1 : (⟨1, ![128]⟩ : Shape).Idx → EReal) (W2 : (⟨2, ![128, 64]⟩ : Shape).Idx → EReal) (B2 : (⟨1, ![64]⟩ : Shape).Idx → EReal)
    (x0 : FVec Ideal S5000x10 .f32) (x1 : FVec Ideal S10x128 .f32) (x2 : FVec Ideal S128 .f32) (x3 : FVec Ideal S128x64 .f32)
    (x4 : FVec Ideal S64 .f32) (tv : ℕ)
    (h0 : ∀ (p : Fin 5000) (k : Fin 10) (r : Fin 100000), r.val = tv * 5000 + p.val → x0 (ix2 p k) = A (ix2 r k))
    (h1 : x1 = W1) (h2 : x2 = B1) (h3 : x3 = W2) (h4 : x4 = B2)
    (y : (⟨2, ![5000, 64]⟩ : Shape).Idx) (i : (⟨2, ![100000, 64]⟩ : Shape).Idx)
    (hi0 : (i 0).val = tv * 5000 + (y 0).val) (hi1 : (i 1).val = (y 1).val) :
    k0_pay1 (F := Ideal) x0 x1 x2 x3 x4 y = Cert.HeadSpec.head A W1 B1 W2 B2 i := by
  subst h1 h2 h3 h4
  obtain ⟨p, o, rfl⟩ : ∃ (p : Fin 5000) (o : Fin 64), y = ix2 p o := ⟨y 0, y 1, eq_ix2 y⟩
  obtain ⟨r, o', rfl⟩ : ∃ (r : Fin 100000) (o' : Fin 64), i = ix2 r o' := ⟨i 0, i 1, eq_ix2 i⟩
  have ho : o' = o := Fin.ext hi1
  subst ho
  rw [pay_apply, Cert.HeadSpec.head_ix2]
  exact Cert.HeadSpec.outAt_congr x0 A x1 x2 x3 x4 p r o' fun k => h0 p k r hi0

/-! ## What a point writes back, over variable arrays -/

/-- With the five windows' arrays any arrays `A0 … A4`: the body's tile computed from their blocks at point t, read
    through the output window's block, is block t of the head of `A0 … A4`. -/
theorem tile_is_block (A0 : S100000x10.Idx → EReal) (A1 : S10x128.Idx → EReal) (A2 : S128.Idx → EReal)
    (A3 : S128x64.Idx → EReal) (A4 : S64.Idx → EReal) (t : Fin cfg0.N) :
    (cfg0.win 5).cut (grid0.coords t)
        (out0_5 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (Cert.HeadSpec.head A0 A1 A2 A3 A4 : S100000x64.Idx → EReal) := by
  obtain ⟨-, -, -, -, -, -, -, -, e50, e51⟩ := idx_facts t
  unfold out0_5
  rw [View.canon_unit_zero zero2]
  simp only [View.ld_unit_zero (S := S5000x10) zero2, View.ld_unit_zero (S := S10x128) zero2, View.ld_unit_zero (S := S128) zero1,
    View.ld_unit_zero (S := S128x64) zero2, View.ld_unit_zero (S := S64) zero1]
  funext j
  show k0_pay1 (F := Ideal) (((cfg0.win 0).blk t).view.read (Elt Ideal) A0) (((cfg0.win 1).blk t).view.read (Elt Ideal) A1)
      (((cfg0.win 2).blk t).view.read (Elt Ideal) A2) (((cfg0.win 3).blk t).view.read (Elt Ideal) A3)
      (((cfg0.win 4).blk t).view.read (Elt Ideal) A4) j
    = Cert.HeadSpec.head A0 A1 A2 A3 A4 (((cfg0.win 5).blk t).view.emb j)
  refine tile_entry A0 A1 A2 A3 A4 (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) t.val
    (fun p k r hr => rows_read A0 t p k r hr) (w1_read A1 t) (b1_read A2 t) (w2_read A3 t) (b2_read A4 t)
    j (((cfg0.win 5).blk t).view.emb j) ?_ ?_
  · show win0_5.index t (0 : Fin 2) * 5000 + 1 * (j 0).val = t.val * 5000 + (j 0).val; omega
  · show win0_5.index t (1 : Fin 2) * 64 + 1 * (j 1).val = (j 1).val; omega

/-! ## The arrays the region finds, the cover, the final array -/

/-- The head of the five windows' arrays as the region finds them. -/
abbrev headOf (c : Dev nD) : S100000x64.Idx → EReal :=
  Cert.HeadSpec.head (V m c (Pipeline.arrRef spec0 0) : S100000x10.Idx → EReal) (V m c (Pipeline.arrRef spec0 1) : S10x128.Idx → EReal)
    (V m c (Pipeline.arrRef spec0 2) : S128.Idx → EReal) (V m c (Pipeline.arrRef spec0 3) : S128x64.Idx → EReal)
    (V m c (Pipeline.arrRef spec0 4) : S64.Idx → EReal)

/-- Point t writes back block t of the head of the arrays the region found. -/
theorem flushed_eq (c : Dev nD) (t : Fin cfg0.N) :
    (dats m 0 c).flushed 5 t = ((cfg0.win 5).blk t).view.read (Elt Ideal) (headOf m c) := by
  rw [Cert.KernelIdeal.Value.flushed5]
  unfold iblk
  exact tile_is_block (V m c (Pipeline.arrRef spec0 0)) (V m c (Pipeline.arrRef spec0 1)) (V m c (Pipeline.arrRef spec0 2))
    (V m c (Pipeline.arrRef spec0 3)) (V m c (Pipeline.arrRef spec0 4)) t

/-- An index of the result is in point t's block iff each coordinate is in the block's range on its axis. -/
theorem mem_blk (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v34).slice (win0_5.rect t)).set ↔ _
  rw [View.set_slice_whole, Rect.mem_set_unit]
  exact Iff.rfl

/-- Row r of the result is in the block of point r / 5000: the twenty blocks cover the array. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  have hlt : (i 0).val / 5000 < cfg0.N := by rw [hN]; omega
  obtain ⟨t, ht⟩ : ∃ t : Fin cfg0.N, t.val = (i 0).val / 5000 := ⟨⟨(i 0).val / 5000, hlt⟩, rfl⟩
  obtain ⟨-, -, -, -, -, -, -, -, e50, e51⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- The result array after the run is the head of the arrays the region found. -/
theorem final (c : Dev nD) : (dats m 0 c).arrAt 5 cfg0.N = headOf m c :=
  (dats m 0 c).arrAt_eq_of_cover 5 (headOf m c) (fun t _ => flushed_eq m c t) (fun i => cover i)

/-- The kernel's run, read: the result array at the head of the region-entry arrays, the arguments unchanged. -/
theorem run_head : θ_run defs (onTc (τ := τ) (main (F := Ideal))) ⟨m, fun _ => 0, ρ⟩ fun r => ∀ c : Dev nD,
      r.2.mem ((c : Thread nD τ).loc main_v34) = headOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩)
    (Cert.KernelIdeal.Value.run_blocks m ρ)

end Cert.KernelIdeal.HeadValue

end
-- ==== Proof.HeadJoin.lean ====
/-
  The arrays the region finds, named.

  The kernel's result was read as the head of the five arrays its windows are laid over, as the region finds them. The
  first of these is the aggregation `agg` of the three graph arguments as launched (the host operations before the
  launch compute it); the other four are the two weight matrices and the two biases as launched (no host operation
  writes them). So the kernel's result is the head of `agg` and of the four weight arguments — the very term the
  reference's run ends at.
-/
import proofs.«110995_j75050258530542_1_alg».proof.Proof.HeadBlocks
import proofs.«110995_j75050258530542_1_alg».proof.Proof.HostAgg
import proofs.«110995_j75050258530542_1_alg».proof.Proof.RefAgg

noncomputable section

namespace Cert.KernelIdeal.HeadValue

open Cert.KernelIdeal Cert.KernelIdeal.Gen Idealize.ShloMosaic Idealize.ShloMosaic.TcCoe Idealize.SL.Sem

variable (m : (ℓ : Loc nD τ sig) → Buf (Elt Ideal) ℓ)

/-- The head of the region-entry arrays is the head of the aggregation of the three graph arguments and of the two
    weight matrices and two biases, all as launched. -/
theorem headOf_args (c : Dev nD) :
    headOf m c = Cert.HeadSpec.head
      (Cert.ReferenceIdeal.HeadValue.agg (F := Ideal) (m ((c : Thread nD τ).loc main_arg0)) (m ((c : Thread nD τ).loc main_arg1))
        (m ((c : Thread nD τ).loc main_arg2)))
      (m ((c : Thread nD τ).loc main_arg3)) (m ((c : Thread nD τ).loc main_arg4)) (m ((c : Thread nD τ).loc main_arg5))
      (m ((c : Thread nD τ).loc main_arg6)) := by
  have e0 : (V m c (Pipeline.arrRef spec0 0) : S100000x10.Idx → EReal)
      = Cert.ReferenceIdeal.HeadValue.agg (F := Ideal) (m ((c : Thread nD τ).loc main_arg0)) (m ((c : Thread nD τ).loc main_arg1))
          (m ((c : Thread nD τ).loc main_arg2)) := entry_agg m c
  have e1 : (V m c (Pipeline.arrRef spec0 1) : S10x128.Idx → EReal) = m ((c : Thread nD τ).loc main_arg3) := V_main_arg3 m c
  have e2 : (V m c (Pipeline.arrRef spec0 2) : S128.Idx → EReal) = m ((c : Thread nD τ).loc main_arg4) := V_main_arg4 m c
  have e3 : (V m c (Pipeline.arrRef spec0 3) : S128x64.Idx → EReal) = m ((c : Thread nD τ).loc main_arg5) := V_main_arg5 m c
  have e4 : (V m c (Pipeline.arrRef spec0 4) : S64.Idx → EReal) = m ((c : Thread nD τ).loc main_arg6) := V_main_arg6 m c
  show Cert.HeadSpec.head _ _ _ _ _ = _
  rw [e0, e1, e2, e3, e4]

end Cert.KernelIdeal.HeadValue

end
-- ==== Proof.lean ====
/-
  The graph-convolution layer with a dense head: the kernel's program and its reference are one function on extended reals.

  Both programs first compute, on the host and by the same fifty operations, the aggregated node features `agg`: ten
  feature columns of every node, scaled by the out-degree norm, gathered along the edges' sources, scatter-added into
  the edges' destinations, scaled by the in-degree norm. Both then apply the dense head

      out(r, o) = (sum over h < 128 of ((sum over k < 10 of agg(r, k) * W1(k, h)) + b1(h)) * W2(h, o)) + b2(o).

  The reference does it with two dot_generals over the whole [100000, 10] array; the kernel with the matrix unit, tile
  by tile: twenty tiles of 5000 rows, each product into a zero accumulator, the operands narrowed to sixteen-bit floats
  on the way in — the identity on extended reals. A row of the result depends on its own row of `agg` alone, so the
  twenty tiles are the twenty row blocks of the one whole-array function, and they cover the result. The sums are taken
  in the same order and grouping on both sides: no law of extended-real arithmetic joins them, only the reading of each
  product as a sum over its contracted axis, and so the finiteness of the inputs is never used.

  The three frame claims: each program terminates without fault and leaves its arguments as they were (for the two
  programs with a kernel, the frame of their one tiled launch; for the reference, its run with the result dropped). The
  idealized kernel is the kernel's own text read on extended reals (no rewrite was applied), so that claim is trivial.
-/
import proofs.«110995_j75050258530542_1_alg».proof.Defs
import proofs.«110995_j75050258530542_1_alg».proof.Proof.Gen.Kernel
import proofs.«110995_j75050258530542_1_alg».proof.Proof.Gen.Kernel.Frame
import proofs.«110995_j75050258530542_1_alg».proof.Proof.Gen.KernelIdeal
import proofs.«110995_j75050258530542_1_alg».proof.Proof.Gen.KernelIdeal.Frame
import proofs.«110995_j75050258530542_1_alg».proof.Proof.Gen.KernelIdeal.Value
import proofs.«110995_j75050258530542_1_alg».proof.Proof.Gen.ReferenceIdeal
import proofs.«110995_j75050258530542_1_alg».proof.Proof.Gen.Pre_finite_inputs
import proofs.«110995_j75050258530542_1_alg».proof.Proof.RefRunPatched
import proofs.«110995_j75050258530542_1_alg».proof.Proof.RefAgg
import proofs.«110995_j75050258530542_1_alg».proof.Proof.RefHead
import proofs.«110995_j75050258530542_1_alg».proof.Proof.HostAgg
import proofs.«110995_j75050258530542_1_alg».proof.Proof.HeadBlocks
import proofs.«110995_j75050258530542_1_alg».proof.Proof.HeadJoin
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernel_ideal : Cert.frame_KernelIdeal := fun m ρ _ => Cert.KernelIdeal.Gen.frame m ρ

/-- The idealized reference runs and leaves its arguments unchanged: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- No operation of the kernel was rewritten on the way to extended reals. -/
theorem preserves : Cert.preserves_Kernel_KernelIdeal := trivial

/-- From memories that agree on the seven arguments, both idealized programs end with the result at the head of the
    aggregated features, the two weight matrices and the two biases: the kernel's result array tile by tile, the
    reference's by its two dot_generals; the aggregated features are the same array on both sides, being the same chain
    of host operations applied to arguments that agree. -/
theorem algebraic : Cert.algebraic_KernelIdeal_ReferenceIdeal := by
  intro m ρ m' ρ' _ hagree
  refine ⟨fun c => Cert.KernelIdeal.HeadValue.headOf m c, Cert.KernelIdeal.HeadValue.run_head m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  rw [h0, h1, h2, h3, h4, h5, h6]
  refine (Cert.ReferenceIdeal.HeadValue.tail_eq _ _ _ _ _).trans ?_
  exact (Cert.KernelIdeal.HeadValue.headOf_args m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
